-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x384 : Shape := ⟨3, ![4, 1024, 384]⟩
abbrev S4x1024x32x384 : Shape := ⟨4, ![4, 1024, 32, 384]⟩
abbrev S4x1024x32 : Shape := ⟨3, ![4, 1024, 32]⟩
abbrev S4x1024x32x128 : Shape := ⟨4, ![4, 1024, 32, 128]⟩
abbrev S384x384 : Shape := ⟨2, ![384, 384]⟩
abbrev S128x384 : Shape := ⟨2, ![128, 384]⟩
abbrev S384 : Shape := ⟨1, ![384]⟩
abbrev S_ : Shape := ⟨0, ![]⟩

class Facts : Prop where
  bcast_S_S4x1024x384 : S_.BroadcastsInDim S4x1024x384 (![] : Fin 0 → Fin S4x1024x384.rank)
  reducesTo_S4x1024x384_S_d0_1_2 : S4x1024x384.ReducesTo [0, 1, 2] S_
  h_S_ : 0 < S_.numel
  bcast_S_S4x1024x32x384 : S_.BroadcastsInDim S4x1024x32x384 (![] : Fin 0 → Fin S4x1024x32x384.rank)
  reducesTo_S4x1024x32x384_S_d0_1_2_3 : S4x1024x32x384.ReducesTo [0, 1, 2, 3] S_
  bcast_S_S4x1024x32 : S_.BroadcastsInDim S4x1024x32 (![] : Fin 0 → Fin S4x1024x32.rank)
  reducesTo_S4x1024x32_S_d0_1_2 : S4x1024x32.ReducesTo [0, 1, 2] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_
  bcast_S_S384x384 : S_.BroadcastsInDim S384x384 (![] : Fin 0 → Fin S384x384.rank)
  reducesTo_S384x384_S_d0_1 : S384x384.ReducesTo [0, 1] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg7 : FVec F S384 .f32) (main_v33 : IVec S_ 1) : IVec S_ 1 :=
  let main_v34 : FVec F S384 .f32 := Host.absf main_arg7
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg4 : FVec F S384x384 .f32) (main_arg5 : FVec F S128x384 .f32) (main_arg6 : FVec F S384 .f32) (main_arg7 : FVec F S384 .f32) (main_v13 : IVec S_ 1) (main_v16 : IVec S4x1024x32x128 1) : IVec S_ 1 :=
  let main_c_5 : IVec S_ 1 := constantI S_ 1 1#1
  let main_v17 : IVec S_ 1 := (fun x v => Host.reduce IntOp.andi x v reducesTo_S4x1024x32x128_S_d0_1_2_3 h_S_) main_v16 main_c_5
  let main_v18 : IVec S_ 1 := andi main_v13 main_v17
  let main_v19 : FVec F S384x384 .f32 := Host.absf main_arg4
  let main_cst_6 : FVec F S_ .f32 := constant S_ .f32 0x7F800000#32
  let main_v20 : FVec F S384x384 .f32 := broadcastInDim S384x384 ![] bcast_S_S384x384 main_cst_6
  let main_v21 : IVec S384x384 1 := cmpf .olt main_v19 main_v20
  let main_c_7 : IVec S_ 1 := constantI S_ 1 1#1
  let main_v22 : IVec S_ 1 := (fun x v => Host.reduce IntOp.andi x v reducesTo_S384x384_S_d0_1 h_S_) main_v21 main_c_7
  let main_v23 : IVec S_ 1 := andi main_v18 main_v22
  let main_v24 : FVec F S128x384 .f32 := Host.absf main_arg5
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_v33

def fn {F : FTy → Type} [FloatOps F] (main_arg0 : FVec F S4x1024x384 .f32) (main_arg1 : FVec F S4x1024x32x384 .f32) (main_arg2 : FVec F S4x1024x32 .f32) (main_arg3 : FVec F S4x1024x32x128 .f32) (main_arg4 : FVec F S384x384 .f32) (main_arg5 : FVec F S128x384 .f32) (main_arg6 : FVec F S384 .f32) (main_arg7 : FVec F S384 .f32) : IVec S_ 1 :=
  let main_v0 : FVec F S4x1024x384 .f32 := Host.absf main_arg0
  let main_cst : FVec F S_ .f32 := constant S_ .f32 0x7F800000#32
  let main_v1 : FVec F S4x1024x384 .f32 := broadcastInDim S4x1024x384 ![] bcast_S_S4x1024x384 main_cst
  let main_v2 : IVec S4x1024x384 1 := cmpf .olt main_v0 main_v1
  let main_c : IVec S_ 1 := constantI S_ 1 1#1
  let main_v3 : IVec S_ 1 := (fun x v => Host.reduce IntOp.andi x v reducesTo_S4x1024x384_S_d0_1_2 h_S_) main_v2 main_c
  let main_v4 : FVec F S4x1024x32x384 .f32 := Host.absf main_arg1
  let main_cst_0 : FVec F S_ .f32 := constant S_ .f32 0x7F800000#32
  let main_v5 : FVec F S4x1024x32x384 .f32 := broadcastInDim S4x1024x32x384 ![] bcast_S_S4x1024x32x384 main_cst_0
  let main_v6 : IVec S4x1024x32x384 1 := cmpf .olt main_v4 main_v5
  let main_c_1 : IVec S_ 1 := constantI S_ 1 1#1
  let main_v7 : IVec S_ 1 := (fun x v => Host.reduce IntOp.andi x v reducesTo_S4x1024x32x384_S_d0_1_2_3 h_S_) main_v6 main_c_1
  let main_v8 : IVec S_ 1 := andi main_v3 main_v7
  let main_v9 : FVec F S4x1024x32 .f32 := Host.absf main_arg2
  let main_cst_2 : FVec F S_ .f32 := constant S_ .f32 0x7F800000#32
  let main_v10 : FVec F S4x1024x32 .f32 := broadcastInDim S4x1024x32 ![] bcast_S_S4x1024x32 main_cst_2
  let main_v11 : IVec S4x1024x32 1 := cmpf .olt main_v9 main_v10
  let main_c_3 : IVec S_ 1 := constantI S_ 1 1#1
  let main_v12 : IVec S_ 1 := (fun x v => Host.reduce IntOp.andi x v reducesTo_S4x1024x32_S_d0_1_2 h_S_) main_v11 main_c_3
  let main_v13 : IVec S_ 1 := andi main_v8 main_v12
  let main_v14 : FVec F S4x1024x32x128 .f32 := Host.absf main_arg3
  let main_cst_4 : FVec F S_ .f32 := constant S_ .f32 0x7F800000#32
  let main_v15 : FVec F S4x1024x32x128 .f32 := broadcastInDim S4x1024x32x128 ![] bcast_S_S4x1024x32x128 main_cst_4
  let main_v16 : IVec S4x1024x32x128 1 := cmpf .olt main_v14 main_v15
  fn_part1 (F := F) main_arg4 main_arg5 main_arg6 main_arg7 main_v13 main_v16
-- ==== Kernel.lean ====
abbrev S4x1024x384 : Shape := ⟨3, ![4, 1024, 384]⟩
abbrev S4x1024x32x384 : Shape := ⟨4, ![4, 1024, 32, 384]⟩
abbrev S4x1024x32 : Shape := ⟨3, ![4, 1024, 32]⟩
abbrev S4x1024x32x128 : Shape := ⟨4, ![4, 1024, 32, 128]⟩
abbrev S384x384 : Shape := ⟨2, ![384, 384]⟩
abbrev S128x384 : Shape := ⟨2, ![128, 384]⟩
abbrev S384 : Shape := ⟨1, ![384]⟩
abbrev S1x384 : Shape := ⟨2, ![1, 384]⟩
abbrev S1x128x384 : Shape := ⟨3, ![1, 128, 384]⟩
abbrev S1x128x32x384 : Shape := ⟨4, ![1, 128, 32, 384]⟩
abbrev S1x128x32 : Shape := ⟨3, ![1, 128, 32]⟩
abbrev S1x128x32x128 : Shape := ⟨4, ![1, 128, 32, 128]⟩
abbrev S1x128x16x384 : Shape := ⟨4, ![1, 128, 16, 384]⟩
abbrev S128x16x384 : Shape := ⟨3, ![128, 16, 384]⟩
abbrev S2048x384 : Shape := ⟨2, ![2048, 384]⟩
abbrev S128x1x384 : Shape := ⟨3, ![128, 1, 384]⟩
abbrev S1x128x16 : Shape := ⟨3, ![1, 128, 16]⟩
abbrev S128x16 : Shape := ⟨2, ![128, 16]⟩
abbrev S1x128x16x128 : Shape := ⟨4, ![1, 128, 16, 128]⟩
abbrev S128x16x128 : Shape := ⟨3, ![128, 16, 128]⟩
abbrev S128x16x1 : Shape := ⟨3, ![128, 16, 1]⟩
abbrev S2048x128 : Shape := ⟨2, ![2048, 128]⟩
abbrev S128 : Shape := ⟨1, ![128]⟩
abbrev S128x1 : Shape := ⟨2, ![128, 1]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x384, .f32⟩
  | .hbm, ⟨1, _⟩ => ⟨S4x1024x32x384, .f32⟩
  | .hbm, ⟨2, _⟩ => ⟨S4x1024x32, .f32⟩
  | .hbm, ⟨3, _⟩ => ⟨S4x1024x32x128, .f32⟩
  | .hbm, ⟨4, _⟩ => ⟨S384x384, .f32⟩
  | .hbm, ⟨5, _⟩ => ⟨S128x384, .f32⟩
  | .hbm, ⟨6, _⟩ => ⟨S384, .f32⟩
  | .hbm, ⟨7, _⟩ => ⟨S384, .f32⟩
  | .hbm, ⟨8, _⟩ => ⟨S1x384, .f32⟩
  | .hbm, ⟨9, _⟩ => ⟨S1x384, .f32⟩
  | .hbm, ⟨10, _⟩ => ⟨S4x1024x384, .f32⟩
  | .local _ .vmem, ⟨0, _⟩ => ⟨S1x128x384, .f32⟩
  | .local _ .vmem, ⟨1, _⟩ => ⟨S1x128x384, .f32⟩
  | .local _ .vmem, ⟨2, _⟩ => ⟨S1x128x32x384, .f32⟩
  | .local _ .vmem, ⟨3, _⟩ => ⟨S1x128x32x384, .f32⟩
  | .local _ .vmem, ⟨4, _⟩ => ⟨S1x128x32, .f32⟩
  | .local _ .vmem, ⟨5, _⟩ => ⟨S1x128x32, .f32⟩
  | .local _ .vmem, ⟨6, _⟩ => ⟨S1x128x32x128, .f32⟩
  | .local _ .vmem, ⟨7, _⟩ => ⟨S1x128x32x128, .f32⟩
  | .local _ .vmem, ⟨8, _⟩ => ⟨S384x384, .f32⟩
  | .local _ .vmem, ⟨9, _⟩ => ⟨S128x384, .f32⟩
  | .local _ .vmem, ⟨10, _⟩ => ⟨S1x384, .f32⟩
  | .local _ .vmem, ⟨11, _⟩ => ⟨S1x384, .f32⟩
  | .local _ .vmem, ⟨12, _⟩ => ⟨S1x128x384, .f32⟩
  | .local _ .vmem, ⟨13, _⟩ => ⟨S1x128x384, .f32⟩
  | _, _ => ⟨S4x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S384_S1x384 : S384.ShapeCasts S1x384
  inb_S384x384_S384x384_0_0 : ∀ a, (![0, 0] : Fin 2 → Nat) a + S384x384.size a ≤ S384x384.size a
  h_S384x384 : 0 < S384x384.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  inb_S1x128x384_S1x128x384_0_0_0 : ∀ a, (![0, 0, 0] : Fin 3 → Nat) a + S1x128x384.size a ≤ S1x128x384.size a
  h_S1x128x384 : 0 < S1x128x384.numel
  shapeCasts_S1x128x384_S128x384 : S1x128x384.ShapeCasts S128x384
  inb_S1x128x32x384_S1x128x16x384_0_0_0_0 : ∀ a, (![0, 0, 0, 0] : Fin 4 → Nat) a + S1x128x16x384.size a ≤ S1x128x32x384.size a
  h_S1x128x16x384 : 0 < S1x128x16x384.numel
  shapeCasts_S1x128x16x384_S128x16x384 : S1x128x16x384.ShapeCasts S128x16x384
  shapeCasts_S128x16x384_S2048x384 : S128x16x384.ShapeCasts S2048x384
  shapeCasts_S2048x384_S128x16x384 : S2048x384.ShapeCasts S128x16x384
  shapeCasts_S128x384_S128x1x384 : S128x384.ShapeCasts S128x1x384
  broadcasts_S128x1x384_S128x16x384 : S128x1x384.Broadcasts S128x16x384
  inb_S1x128x32_S1x128x16_0_0_0 : ∀ a, (![0, 0, 0] : Fin 3 → Nat) a + S1x128x16.size a ≤ S1x128x32.size a
  h_S1x128x16 : 0 < S1x128x16.numel
  shapeCasts_S1x128x16_S128x16 : S1x128x16.ShapeCasts S128x16
  inb_S1x128x32x128_S1x128x16x128_0_0_0_0 : ∀ a, (![0, 0, 0, 0] : Fin 4 → Nat) a + S1x128x16x128.size a ≤ S1x128x32x128.size a
  h_S1x128x16x128 : 0 < S1x128x16x128.numel
  shapeCasts_S1x128x16x128_S128x16x128 : S1x128x16x128.ShapeCasts S128x16x128
  shapeCasts_S128x16_S128x16x1 : S128x16.ShapeCasts S128x16x1
  broadcasts_S128x16x1_S128x16x128 : S128x16x1.Broadcasts S128x16x128
  shapeCasts_S128x16x128_S2048x128 : S128x16x128.ShapeCasts S2048x128
  reduces_S128x16x384_S128x384 : S128x16x384.Reduces [1] S128x384
  inb_S1x128x32x384_S1x128x16x384_0_0_16_0 : ∀ a, (![0, 0, 16, 0] : Fin 4 → Nat) a + S1x128x16x384.size a ≤ S1x128x32x384.size a
  inb_S1x128x32_S1x128x16_0_0_16 : ∀ a, (![0, 0, 16] : Fin 3 → Nat) a + S1x128x16.size a ≤ S1x128x32.size a
  inb_S1x128x32x128_S1x128x16x128_0_0_16_0 : ∀ a, (![0, 0, 16, 0] : Fin 4 → Nat) a + S1x128x16x128.size a ≤ S1x128x32x128.size a
  reduces_S128x384_S128 : S128x384.Reduces [1] S128
  shapeCasts_S128_S128x1 : S128.ShapeCasts S128x1
  broadcasts_S128x1_S128x384 : S128x1.Broadcasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S128x384 : S1x384.Broadcasts S128x384
  shapeCasts_S128x384_S1x128x384 : S128x384.ShapeCasts S1x128x384
  dot_S2048x384_S384x384_S2048x384_1_0_0_1_n_n_wf : DotDims.WF S2048x384 S384x384 S2048x384 [1] [0] [0] [1] [] []
  dot_S2048x128_S128x384_S2048x384_1_0_0_1_n_n_wf : DotDims.WF S2048x128 S128x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x384.size a ≤ S4x1024x384.size a
  hwx0_0 : ∀ i : grid0.Coords, EltTy.bits .f32 = 32 ∨ (Rect.block (s := S4x1024x384) S1x128x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32x384.size a ≤ S4x1024x32x384.size a
  hwx0_1 : ∀ i : grid0.Coords, EltTy.bits .f32 = 32 ∨ (Rect.block (s := S4x1024x32x384) S1x128x32x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x32.size a ≤ S4x1024x32.size a
  hwx0_2 : ∀ i : grid0.Coords, EltTy.bits .f32 = 32 ∨ (Rect.block (s := S4x1024x32) S1x128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x32x128.size a ≤ S4x1024x32x128.size a
  hwx0_3 : ∀ i : grid0.Coords, EltTy.bits .f32 = 32 ∨ (Rect.block (s := S4x1024x32x128) S1x128x32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .f32 = 32 ∨ (Rect.block (s := S384x384) S384x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x384.size a ≤ S4x1024x384.size a
  hwx0_8 : ∀ i : grid0.Coords, EltTy.bits .f32 = 32 ∨ (Rect.block (s := S4x1024x384) S1x128x384.size (cc0_transform_8 i) (hinb0_8 i)).WholeWords (EltTy.packing .f32)

variable [Facts₀]

def dot_S2048x384_S384x384_S2048x384_1_0_0_1_n_n : DotDims S2048x384 S384x384 S2048x384 where
  lhsContracting := [1]
  rhsContracting := [0]
  lhsNonContracting := [0]
  rhsNonContracting := [1]
  lhsBatch := []
  rhsBatch := []
  wf := dot_S2048x384_S384x384_S2048x384_1_0_0_1_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

abbrev win0_0 : Pipeline.Window sig grid0 :=
  Pipeline.Window.ofSpec (Memref.whole main_arg0) S1x128x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x32x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128x384.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x1024x384 : Shape := ⟨3, ![4, 1024, 384]⟩
abbrev S4x1024x32x384 : Shape := ⟨4, ![4, 1024, 32, 384]⟩
abbrev S4x1024x32 : Shape := ⟨3, ![4, 1024, 32]⟩
abbrev S4x1024x32x128 : Shape := ⟨4, ![4, 1024, 32, 128]⟩
abbrev S384x384 : Shape := ⟨2, ![384, 384]⟩
abbrev S128x384 : Shape := ⟨2, ![128, 384]⟩
abbrev S384 : Shape := ⟨1, ![384]⟩
abbrev S4x1024x1x384 : Shape := ⟨4, ![4, 1024, 1, 384]⟩
abbrev S4x1024x32x1 : Shape := ⟨4, ![4, 1024, 32, 1]⟩
abbrev S_ : Shape := ⟨0, ![]⟩
abbrev S4x1024 : Shape := ⟨2, ![4, 1024]⟩
abbrev S4x1024x1 : Shape := ⟨3, ![4, 1024, 1]⟩
abbrev S1x1x384 : Shape := ⟨3, ![1, 1, 384]⟩

abbrev nBuf : Space → Nat
  | .hbm => 48
  | .vmem => 0
  | .smem => 0
  | _ => 0

abbrev bufTy : (tb : Table) → Fin (tcTables nBuf tb) → BufTy
  | .hbm, ⟨0, _⟩ => ⟨S4x1024x384, .f32⟩
  | .hbm, ⟨1, _⟩ => ⟨S4x1024x32x384, .f32⟩
  | .hbm, ⟨2, _⟩ => ⟨S4x1024x32, .f32⟩
  | .hbm, ⟨3, _⟩ => ⟨S4x1024x32x128, .f32⟩
  | .hbm, ⟨4, _⟩ => ⟨S384x384, .f32⟩
  | .hbm, ⟨5, _⟩ => ⟨S128x384, .f32⟩
  | .hbm, ⟨6, _⟩ => ⟨S384, .f32⟩
  | .hbm, ⟨7, _⟩ => ⟨S384, .f32⟩
  | .hbm, ⟨8, _⟩ => ⟨S4x1024x32x384, .f32⟩
  | .hbm, ⟨9, _⟩ => ⟨S4x1024x1x384, .f32⟩
  | .hbm, ⟨10, _⟩ => ⟨S4x1024x32x384, .f32⟩
  | .hbm, ⟨11, _⟩ => ⟨S4x1024x32x384, .f32⟩
  | .hbm, ⟨12, _⟩ => ⟨S4x1024x32x384, .f32⟩
  | .hbm, ⟨13, _⟩ => ⟨S4x1024x32x384, .f32⟩
  | .hbm, ⟨14, _⟩ => ⟨S4x1024x32x1, .f32⟩
  | .hbm, ⟨15, _⟩ => ⟨S4x1024x32x384, .f32⟩
  | .hbm, ⟨16, _⟩ => ⟨S4x1024x32x384, .f32⟩
  | .hbm, ⟨17, _⟩ => ⟨S_, .f32⟩
  | .hbm, ⟨18, _⟩ => ⟨S4x1024x384, .f32⟩
  | .hbm, ⟨19, _⟩ => ⟨S_, .f32⟩
  | .hbm, ⟨20, _⟩ => ⟨S4x1024, .f32⟩
  | .hbm, ⟨21, _⟩ => ⟨S4x1024x1, .f32⟩
  | .hbm, ⟨22, _⟩ => ⟨S_, .f32⟩
  | .hbm, ⟨23, _⟩ => ⟨S4x1024x1, .f32⟩
  | .hbm, ⟨24, _⟩ => ⟨S4x1024x1, .f32⟩
  | .hbm, ⟨25, _⟩ => ⟨S4x1024x384, .f32⟩
  | .hbm, ⟨26, _⟩ => ⟨S4x1024x384, .f32⟩
  | .hbm, ⟨27, _⟩ => ⟨S4x1024x384, .f32⟩
  | .hbm, ⟨28, _⟩ => ⟨S_, .f32⟩
  | .hbm, ⟨29, _⟩ => ⟨S4x1024, .f32⟩
  | .hbm, ⟨30, _⟩ => ⟨S4x1024x1, .f32⟩
  | .hbm, ⟨31, _⟩ => ⟨S_, .f32⟩
  | .hbm, ⟨32, _⟩ => ⟨S4x1024x1, .f32⟩
  | .hbm, ⟨33, _⟩ => ⟨S4x1024x1, .f32⟩
  | .hbm, ⟨34, _⟩ => ⟨S4x1024x384, .f32⟩
  | .hbm, ⟨35, _⟩ => ⟨S4x1024x384, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S4x1024x1, .f32⟩
  | .hbm, ⟨40, _⟩ => ⟨S4x1024x384, .f32⟩
  | .hbm, ⟨41, _⟩ => ⟨S4x1024x384, .f32⟩
  | .hbm, ⟨42, _⟩ => ⟨S1x1x384, .f32⟩
  | .hbm, ⟨43, _⟩ => ⟨S4x1024x384, .f32⟩
  | .hbm, ⟨44, _⟩ => ⟨S4x1024x384, .f32⟩
  | .hbm, ⟨45, _⟩ => ⟨S1x1x384, .f32⟩
  | .hbm, ⟨46, _⟩ => ⟨S4x1024x384, .f32⟩
  | .hbm, ⟨47, _⟩ => ⟨S4x1024x384, .f32⟩
  | _, _ => ⟨S4x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S4x1024x384_S4x1024x1x384_0_1_3 : S4x1024x384.BroadcastsInDim S4x1024x1x384 (![0, 1, 3] : Fin 3 → Fin S4x1024x1x384.rank)
  bcast_S4x1024x1x384_S4x1024x32x384_0_1_2_3 : S4x1024x1x384.BroadcastsInDim S4x1024x32x384 (![0, 1, 2, 3] : Fin 4 → Fin S4x1024x32x384.rank)
  bcast_S4x1024x32_S4x1024x32x1_0_1_2 : S4x1024x32.BroadcastsInDim S4x1024x32x1 (![0, 1, 2] : Fin 3 → Fin S4x1024x32x1.rank)
  bcast_S4x1024x32x1_S4x1024x32x384_0_1_2_3 : S4x1024x32x1.BroadcastsInDim S4x1024x32x384 (![0, 1, 2, 3] : Fin 4 → Fin S4x1024x32x384.rank)
  reducesTo_S4x1024x32x384_S4x1024x384_d2 : S4x1024x32x384.ReducesTo [2] S4x1024x384
  h_S_ : 0 < S_.numel
  reducesTo_S4x1024x384_S4x1024_d2 : S4x1024x384.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x384_0_1_2 : S4x1024x1.BroadcastsInDim S4x1024x384 (![0, 1, 2] : Fin 3 → Fin S4x1024x384.rank)
  bcast_S384_S1x1x384_2 : S384.BroadcastsInDim S1x1x384 (![2] : Fin 1 → Fin S1x1x384.rank)
  bcast_S1x1x384_S4x1024x384_0_1_2 : S1x1x384.BroadcastsInDim S4x1024x384 (![0, 1, 2] : Fin 3 → Fin S4x1024x384.rank)
  dot_S4x1024x32x384_S384x384_S4x1024x32x384_3_0_012_1_n_n_wf : DotDims.WF S4x1024x32x384 S384x384 S4x1024x32x384 [3] [0] [0, 1, 2] [1] [] []
  dot_S4x1024x32x128_S128x384_S4x1024x32x384_3_0_012_1_n_n_wf : DotDims.WF S4x1024x32x128 S128x384 S4x1024x32x384 [3] [0] [0, 1, 2] [1] [] []

variable [Facts₀]

def dot_S4x1024x32x384_S384x384_S4x1024x32x384_3_0_012_1_n_n : DotDims S4x1024x32x384 S384x384 S4x1024x32x384 where
  lhsContracting := [3]
  rhsContracting := [0]
  lhsNonContracting := [0, 1, 2]
  rhsNonContracting := [1]
  lhsBatch := []
  rhsBatch := []
  wf := dot_S4x1024x32x384_S384x384_S4x1024x32x384_3_0_012_1_n_n_wf
def dot_S4x1024x32x128_S128x384_S4x1024x32x384_3_0_012_1_n_n : DotDims S4x1024x32x128 S128x384 S4x1024x32x384 where
  lhsContracting := [3]
  rhsContracting := [0]
  lhsNonContracting := [0, 1, 2]
  rhsNonContracting := [1]
  lhsBatch := []
  rhsBatch := []
  wf := dot_S4x1024x32x128_S128x384_S4x1024x32x384_3_0_012_1_n_n_wf

class Facts : Prop extends Facts₀ where

variable [Facts]
-- ==== Proof.Spec.lean ====
/-
  What both programs compute, index by index, over the extended reals.

  For a row (b, n) and an output channel d, each neighbour k contributes
      ((Σ_c s_ij[b,n,k,c] · W_s[c,d]) − s_i[b,n,d]) · gate[b,n,k,d]
  where the gate is the pair activation projected by W_z. The neighbour mask m_ij[b,n,k] enters in one of two places:
  multiplied into the pair activation BEFORE the projection (`gateIn`, and the 32 neighbours summed as two halves of
  16 on top of a zero), or multiplied onto the finished message AFTER it (`gateOut`, one sum over the 32 neighbours on top
  of a zero). The row of neighbour sums is then normalised: subtract the row mean, scale by the reciprocal square root of
  the row variance plus a constant, multiply by gamma, add beta (`lnorm`).

  The two arrangements agree when the mask, the pair activations and W_z are real numbers: a real factor can be pulled out
  of a finite sum of reals, which is false on the extended reals in general (a negative factor against a sum that holds
  both infinities). Products reassociate and sums regroup with no such condition.

  The definitions are generic in the two leading extents, so that the same text reads a block of rows and the whole array.
-/
import Idealize.ShloMosaic.PureOps.Ideal
import Idealize.ShloMosaic.Lib.ValueIdx

noncomputable section

open scoped BigOperators

namespace Cert.Spec

open Idealize.ShloMosaic Idealize.ShloMosaic.ValueIdx

/-- The float word of 384, the row length the mean and the variance divide by. -/
abbrev c384 : EReal := Ideal.ofBits .f32 0x43C00000#32
/-- The float word added to the variance. -/
abbrev eps : EReal := Ideal.ofBits .f32 0x358637BD#32
/-- The zero word every sum starts from. -/
abbrev z0 : EReal := Ideal.ofBits .f32 0x00000000#32

/-! ## The normalised row -/

/-- The mean of a row of 384 entries. -/
def rowMean (S : Fin 384 → EReal) : EReal := Ideal.div (∑ e : Fin 384, S e) c384

/-- The variance of a row: the mean of the squared deviations from the row mean. -/
def rowVar (S : Fin 384 → EReal) : EReal :=
  Ideal.div (∑ e : Fin 384, (S e - rowMean S) * (S e - rowMean S)) c384

/-- Entry `d` of the normalised row, scaled by `g d` and shifted by `bt d`. -/
def lnorm (S g bt : Fin 384 → EReal) (d : Fin 384) : EReal :=
  (S d - rowMean S) * Ideal.rsqrt (rowVar S + eps) * g d + bt d

/-! ## The neighbour sum, in two arrangements -/

/-- Neighbour `k` of the first half, as one of the 32. -/
abbrev lo (k : Fin 16) : Fin 32 := ⟨k.val, by omega⟩
/-- Neighbour `k` of the second half, as one of the 32. -/
abbrev hi (k : Fin 16) : Fin 32 := ⟨16 + k.val, by omega⟩

section
variable {Bn Nn : Nat}
variable (si : (⟨3, ![Bn, Nn, 384]⟩ : Shape).Idx → EReal) (sij : (⟨4, ![Bn, Nn, 32, 384]⟩ : Shape).Idx → EReal)
  (mij : (⟨3, ![Bn, Nn, 32]⟩ : Shape).Idx → EReal) (zij : (⟨4, ![Bn, Nn, 32, 128]⟩ : Shape).Idx → EReal)
  (Ws : (⟨2, ![384, 384]⟩ : Shape).Idx → EReal) (Wz : (⟨2, ![128, 384]⟩ : Shape).Idx → EReal)

/-- The projected neighbour activation minus the centre activation. -/
def diff (b : Fin Bn) (n : Fin Nn) (k : Fin 32) (d : Fin 384) : EReal :=
  (∑ c : Fin 384, sij (ix4 b n k c) * Ws (ix2 c d)) - si (ix3 b n d)

/-- The gate with the mask multiplied into the pair activation before the projection. -/
def gateIn (b : Fin Bn) (n : Fin Nn) (k : Fin 32) (d : Fin 384) : EReal :=
  ∑ z : Fin 128, (zij (ix4 b n k z) * mij (ix3 b n k)) * Wz (ix2 z d)

/-- The gate of the unmasked pair activation. -/
def gateOut (b : Fin Bn) (n : Fin Nn) (k : Fin 32) (d : Fin 384) : EReal :=
  ∑ z : Fin 128, zij (ix4 b n k z) * Wz (ix2 z d)

/-- The neighbour sum with the mask inside the gate, the 32 neighbours taken as two halves of 16. -/
def nbrIn (b : Fin Bn) (n : Fin Nn) (d : Fin 384) : EReal :=
  (z0 + ∑ k : Fin 16, diff si sij Ws b n (lo k) d * gateIn mij zij Wz b n (lo k) d)
    + ∑ k : Fin 16, diff si sij Ws b n (hi k) d * gateIn mij zij Wz b n (hi k) d

/-- The neighbour sum with the mask applied to each finished message, one sum over the 32 neighbours. -/
def nbrOut (b : Fin Bn) (n : Fin Nn) (d : Fin 384) : EReal :=
  z0 + ∑ k : Fin 32, (diff si sij Ws b n k d * gateOut zij Wz b n k d) * mij (ix3 b n k)

/-- The whole result with the mask inside the gate. -/
def resIn (g bt : Fin 384 → EReal) : (⟨3, ![Bn, Nn, 384]⟩ : Shape).Idx → EReal :=
  fun i => lnorm (fun e => nbrIn si sij mij zij Ws Wz (i 0) (i 1) e) g bt (i 2)

/-- The whole result with the mask applied after the gate. -/
def resOut (g bt : Fin 384 → EReal) : (⟨3, ![Bn, Nn, 384]⟩ : Shape).Idx → EReal :=
  fun i => lnorm (fun e => nbrOut si sij mij zij Ws Wz (i 0) (i 1) e) g bt (i 2)

end

/-! ## The law between the two arrangements -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 32 neighbours is the sum over the first 16 plus the sum over the last 16. -/
theorem sum_halves {M : Type*} [AddCommMonoid M] (f : Fin 32 → M) :
    ∑ k : Fin 32, f k = ∑ k : Fin 16, f (lo k) + ∑ k : Fin 16, f (hi k) :=
  Fin.sum_univ_add (a := 16) (b := 16) f

section
variable {Bn Nn : Nat}
variable (si : (⟨3, ![Bn, Nn, 384]⟩ : Shape).Idx → EReal) (sij : (⟨4, ![Bn, Nn, 32, 384]⟩ : Shape).Idx → EReal)
  (mij : (⟨3, ![Bn, Nn, 32]⟩ : Shape).Idx → EReal) (zij : (⟨4, ![Bn, Nn, 32, 128]⟩ : Shape).Idx → EReal)
  (Ws : (⟨2, ![384, 384]⟩ : Shape).Idx → EReal) (Wz : (⟨2, ![128, 384]⟩ : Shape).Idx → EReal)

/-- With a real mask, real pair activations and a real W_z, the mask comes out of the gate as a factor. -/
theorem gateIn_eq (hm : ∀ j, ∃ r : ℝ, mij j = (r : EReal)) (hz : ∀ j, ∃ r : ℝ, zij j = (r : EReal))
    (hW : ∀ j, ∃ r : ℝ, Wz j = (r : EReal)) (b : Fin Bn) (n : Fin Nn) (k : Fin 32) (d : Fin 384) :
    gateIn mij zij Wz b n k d = gateOut zij Wz b n k d * mij (ix3 b n k) := by
  obtain ⟨μ, hμ⟩ := hm (ix3 b n k)
  choose a ha using fun z : Fin 128 => hz (ix4 b n k z)
  choose w hw using fun z : Fin 128 => hW (ix2 z d)
  unfold gateIn gateOut
  rw [hμ]
  simp only [ha, hw, ← EReal.coe_mul, ← coe_sum]
  exact congrArg _ (by rw [Finset.sum_mul]; exact Finset.sum_congr rfl fun z _ => by ring)

/-- So the two neighbour sums agree. -/
theorem nbrIn_eq (hm : ∀ j, ∃ r : ℝ, mij j = (r : EReal)) (hz : ∀ j, ∃ r : ℝ, zij j = (r : EReal))
    (hW : ∀ j, ∃ r : ℝ, Wz j = (r : EReal)) (b : Fin Bn) (n : Fin Nn) (d : Fin 384) :
    nbrIn si sij mij zij Ws Wz b n d = nbrOut si sij mij zij Ws Wz b n d := by
  unfold nbrIn nbrOut
  rw [sum_halves, ← add_assoc]
  refine congr (congrArg _ (congrArg _ (Finset.sum_congr rfl fun k _ => ?_))) (Finset.sum_congr rfl fun k _ => ?_)
  · rw [gateIn_eq mij zij Wz hm hz hW, mul_assoc]
  · rw [gateIn_eq mij zij Wz hm hz hW, mul_assoc]

/-- And so do the two results. -/
theorem resIn_eq (hm : ∀ j, ∃ r : ℝ, mij j = (r : EReal)) (hz : ∀ j, ∃ r : ℝ, zij j = (r : EReal))
    (hW : ∀ j, ∃ r : ℝ, Wz j = (r : EReal)) (g bt : Fin 384 → EReal) :
    resIn si sij mij zij Ws Wz g bt = resOut si sij mij zij Ws Wz g bt := by
  funext i
  unfold resIn resOut
  rw [show (fun e => nbrIn si sij mij zij Ws Wz (i 0) (i 1) e) = fun e => nbrOut si sij mij zij Ws Wz (i 0) (i 1) e from
    funext fun e => nbrIn_eq si sij mij zij Ws Wz hm hz hW (i 0) (i 1) e]

end

end Cert.Spec

end
-- ==== Proof.Finite.lean ====
/-
  What the precondition gives the proof: the entries of the neighbour mask, of the pair activations and of W_z are
  real numbers.

  The precondition is the conjunction, one argument array after another, of "every entry's absolute value is below
  +∞". Over the extended reals an entry with |x| < +∞ is neither infinity, so it is a real number. Only the three arrays
  the algebraic law needs are read out.
-/
import proofs.«111553_j24043226923188_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Cert.Pre_finite_inputs

/-- The shape with no axes has one index. -/
instance : Subsingleton S_.Idx := ⟨fun a b => funext fun d => d.elim0⟩

/-- An extended real whose absolute value compares below the word of +∞ is a real number. -/
theorem real_of_abs_lt_inf (x : EReal)
    (h : FloatOps.cmpf (F := Ideal) (φ := .f32) .olt (FloatOps.absf x) (Ideal.ofBits .f32 0x7F800000#32) = 1#1) :
    ∃ r : ℝ, x = (r : EReal) := by
  simp [Ideal.ofBits, Ideal.ieee] at h
  induction x using EReal.rec with
  | bot => simp [Ideal.cmpf_def, Ideal.absf_def, Ideal.cmp] at h
  | coe r => exact ⟨r, rfl⟩
  | top => simp [Ideal.cmpf_def, Ideal.absf_def, Ideal.cmp] at h

/-- Under the precondition the mask (argument 2), the pair activations (argument 3) and W_z (argument 5) hold reals. -/
theorem reals_of_pre [Cert.Pre_finite_inputs.Facts] (a0 : FVec Ideal S4x1024x384 .f32) (a1 : FVec Ideal S4x1024x32x384 .f32)
    (a2 : FVec Ideal S4x1024x32 .f32) (a3 : FVec Ideal S4x1024x32x128 .f32) (a4 : FVec Ideal S384x384 .f32)
    (a5 : FVec Ideal S128x384 .f32) (a6 a7 : FVec Ideal S384 .f32)
    (h : fn (F := Ideal) a0 a1 a2 a3 a4 a5 a6 a7 = fun _ => 1#1) :
    (∀ j, ∃ r : ℝ, a2 j = (r : EReal)) ∧ (∀ j, ∃ r : ℝ, a3 j = (r : EReal)) ∧ (∀ j, ∃ r : ℝ, a5 j = (r : EReal)) := by
  have h0 := congrFun h ValueIdx.ix0
  dsimp only [fn, fn_part1, fn_part2] at h0
  simp only [andi, IntOp.andi_eq_one] at h0
  obtain ⟨⟨⟨⟨⟨⟨⟨-, -⟩, h2⟩, h3⟩, -⟩, h5⟩, -⟩, -⟩ := h0
  refine ⟨fun j => ?_, fun j => ?_, fun j => ?_⟩
  · exact real_of_abs_lt_inf (a2 j) (Host.reduce_andi_all _ _ _ _ _ h2 j)
  · exact real_of_abs_lt_inf (a3 j) (Host.reduce_andi_all _ _ _ _ _ h3 j)
  · exact real_of_abs_lt_inf (a5 j) (Host.reduce_andi_all _ _ _ _ _ h5 j)

end Cert.Finite

end
-- ==== Proof.RefValue.lean ====
/-
  The reference, read at an index: its result is `Spec.resOut` of its arguments.

  The reference contracts the last axis of s_ij with W_s and of z_ij with W_z, subtracts the centre activation repeated
  over the neighbours, multiplies by the gate and then by the mask repeated over the channels, sums the 32 neighbours
  from zero, and normalises each row: two sums over the 384 channels from zero (the row sum and the sum of squared
  deviations), each divided by the word of 384, a reciprocal square root, gamma and beta repeated over the rows.
  Each of its operations is read at an index by the generated stage lemmas; what is written here identifies the
  composed index maps with indices written by coordinates, and drops the zero each sum starts from.
-/
import proofs.«111553_j24043226923188_2_alg».proof.Proof.Gen.ReferenceIdeal.Read
import proofs.«111553_j24043226923188_2_alg».proof.Proof.Spec

noncomputable section

open scoped BigOperators

namespace Cert.RefValue

open Cert.ReferenceIdeal Cert.ReferenceIdeal.Read Idealize.ShloMosaic Idealize.ShloMosaic.ValueIdx Cert.Spec

variable (x0 : FVec Ideal S4x1024x384 .f32) (x1 : FVec Ideal S4x1024x32x384 .f32) (x2 : FVec Ideal S4x1024x32 .f32)
  (x3 : FVec Ideal S4x1024x32x128 .f32) (x4 : FVec Ideal S384x384 .f32) (x5 : FVec Ideal S128x384 .f32)
  (x6 x7 : FVec Ideal S384 .f32)

/-- The masked message of neighbour `k` at (b, n, d). -/
theorem msg_at (b : Fin 4) (n : Fin 1024) (k : Fin 32) (d : Fin 384) :
    val_main_v8 (F := Ideal) x0 x1 x2 x3 x4 x5 (ix4 b n k d)
      = (diff x0 x1 x4 b n k d * gateOut x3 x5 b n k d) * x2 (ix3 b n k) := by
  have el0 : ∀ c : Fin 384, lidx_main_v0 (ix4 b n k d) c = ix4 b n k c := fun c => funext fun a => Fin.ext (by
    match a with | ⟨0, _⟩ => rfl | ⟨1, _⟩ => rfl | ⟨2, _⟩ => rfl | ⟨3, _⟩ => rfl)
  have er0 : ∀ c : Fin 384, ridx_main_v0 (ix4 b n k d) c = ix2 c d := fun c => funext fun a => Fin.ext (by
    match a with | ⟨0, _⟩ => rfl | ⟨1, _⟩ => rfl)
  have el4 : ∀ z : Fin 128, lidx_main_v4 (ix4 b n k d) z = ix4 b n k z := fun z => funext fun a => Fin.ext (by
    match a with | ⟨0, _⟩ => rfl | ⟨1, _⟩ => rfl | ⟨2, _⟩ => rfl | ⟨3, _⟩ => rfl)
  have er4 : ∀ z : Fin 128, ridx_main_v4 (ix4 b n k d) z = ix2 z d := fun z => funext fun a => Fin.ext (by
    match a with | ⟨0, _⟩ => rfl | ⟨1, _⟩ => rfl)
  have e2 : idx_main_v1 (idx_main_v2 (ix4 b n k d)) = ix3 b n d := funext fun a => Fin.ext (by
    match a with | ⟨0, _⟩ => rfl | ⟨1, _⟩ => rfl | ⟨2, _⟩ => rfl)
  have e7 : idx_main_v6 (idx_main_v7 (ix4 b n k d)) = ix3 b n k := funext fun a => Fin.ext (by
    match a with | ⟨0, _⟩ => rfl | ⟨1, _⟩ => rfl | ⟨2, _⟩ => rfl)
  show (val_main_v0 (F := Ideal) x1 x4 (ix4 b n k d) - val_main_v2 (F := Ideal) x0 (ix4 b n k d))
      * val_main_v4 (F := Ideal) x3 x5 (ix4 b n k d) * val_main_v7 (F := Ideal) x2 (ix4 b n k d) = _
  rw [val_main_v0_apply, val_main_v2_apply, val_main_v1_apply, val_main_v4_apply, val_main_v7_apply, val_main_v6_apply, e2, e7]
  simp only [el0, er0, el4, er4]
  rfl

/-- The neighbour sum at (b, n, d). -/
theorem nbr_at (b : Fin 4) (n : Fin 1024) (d : Fin 384) :
    val_main_v9 (F := Ideal) x0 x1 x2 x3 x4 x5 (ix3 b n d) = nbrOut x0 x1 x2 x3 x4 x5 b n d := by
  have e9 : ∀ k : Fin 32, idx_main_v9 (ix3 b n d) k = ix4 b n k d := fun k => funext fun a => Fin.ext (by
    match a with | ⟨0, _⟩ => rfl | ⟨1, _⟩ => rfl | ⟨2, _⟩ => rfl | ⟨3, _⟩ => rfl)
  rw [val_main_v9_apply]
  simp only [e9, msg_at]
  rfl

/-- The row mean at row (b, n). -/
theorem mean_at (b : Fin 4) (n : Fin 1024) (u : Fin 1) :
    val_main_v13 (F := Ideal) x0 x1 x2 x3 x4 x5 (ix3 b n u) = rowMean (fun e => nbrOut x0 x1 x2 x3 x4 x5 b n e) := by
  have e10 : ∀ e : Fin 384, idx_main_v10 (idx_main_v11 (ix3 b n u)) e = ix3 b n e := fun e => funext fun a => Fin.ext (by
    match a with | ⟨0, _⟩ => rfl | ⟨1, _⟩ => rfl | ⟨2, _⟩ => rfl)
  show Ideal.div (val_main_v11 (F := Ideal) x0 x1 x2 x3 x4 x5 (ix3 b n u)) (val_main_v12 (F := Ideal) (ix3 b n u)) = _
  rw [val_main_v11_apply, val_main_v10_apply, val_main_v12_apply]
  simp only [e10, nbr_at]
  show Ideal.div (Ideal.ofBits .f32 0x00000000#32 + _) c384 = _
  rw [Ideal.ofBits_zero_f32, zero_add]
  rfl

/-- The deviation from the row mean at (b, n, d). -/
theorem dev_at (b : Fin 4) (n : Fin 1024) (d : Fin 384) :
    val_main_v15 (F := Ideal) x0 x1 x2 x3 x4 x5 (ix3 b n d)
      = nbrOut x0 x1 x2 x3 x4 x5 b n d - rowMean (fun e => nbrOut x0 x1 x2 x3 x4 x5 b n e) := by
  have e14 : idx_main_v14 (ix3 b n d) = ix3 b n (0 : Fin 1) := funext fun a => Fin.ext (by
    match a with | ⟨0, _⟩ => rfl | ⟨1, _⟩ => rfl | ⟨2, _⟩ => rfl)
  show val_main_v9 (F := Ideal) x0 x1 x2 x3 x4 x5 (ix3 b n d) - val_main_v14 (F := Ideal) x0 x1 x2 x3 x4 x5 (ix3 b n d) = _
  rw [val_main_v14_apply, e14, mean_at, nbr_at]

/-- The row variance at row (b, n). -/
theorem var_at (b : Fin 4) (n : Fin 1024) (u : Fin 1) :
    val_main_v20 (F := Ideal) x0 x1 x2 x3 x4 x5 (ix3 b n u) = rowVar (fun e => nbrOut x0 x1 x2 x3 x4 x5 b n e) := by
  have e17 : ∀ e : Fin 384, idx_main_v17 (idx_main_v18 (ix3 b n u)) e = ix3 b n e := fun e => funext fun a => Fin.ext (by
    match a with | ⟨0, _⟩ => rfl | ⟨1, _⟩ => rfl | ⟨2, _⟩ => rfl)
  have e16 : ∀ e : Fin 384, val_main_v16 (F := Ideal) x0 x1 x2 x3 x4 x5 (ix3 b n e)
      = (nbrOut x0 x1 x2 x3 x4 x5 b n e - rowMean (fun e => nbrOut x0 x1 x2 x3 x4 x5 b n e))
        * (nbrOut x0 x1 x2 x3 x4 x5 b n e - rowMean (fun e => nbrOut x0 x1 x2 x3 x4 x5 b n e)) := fun e => by
    show val_main_v15 (F := Ideal) x0 x1 x2 x3 x4 x5 (ix3 b n e) * val_main_v15 (F := Ideal) x0 x1 x2 x3 x4 x5 (ix3 b n e) = _
    rw [dev_at]
  show Ideal.div (val_main_v18 (F := Ideal) x0 x1 x2 x3 x4 x5 (ix3 b n u)) (val_main_v19 (F := Ideal) (ix3 b n u)) = _
  rw [val_main_v18_apply, val_main_v17_apply, val_main_v19_apply]
  simp only [e17, e16]
  show Ideal.div (Ideal.ofBits .f32 0x00000000#32 + _) c384 = _
  rw [Ideal.ofBits_zero_f32, zero_add]
  rfl

/-- THE REFERENCE'S RESULT is `resOut` of its arguments, gamma and beta read as functions of the channel. -/
theorem result_eq :
    val_main_v33 (F := Ideal) x0 x1 x2 x3 x4 x5 x6 x7
      = resOut x0 x1 x2 x3 x4 x5 (fun e => x6 (ix1 e)) (fun e => x7 (ix1 e)) := by
  funext i
  obtain ⟨b, n, d, rfl⟩ : ∃ (b : Fin 4) (n : Fin 1024) (d : Fin 384), i = ix3 b n d := ⟨i 0, i 1, i 2, eq_ix3 i⟩
  have e21 : idx_main_v21 (ix3 b n d) = ix3 b n (0 : Fin 1) := funext fun a => Fin.ext (by
    match a with | ⟨0, _⟩ => rfl | ⟨1, _⟩ => rfl | ⟨2, _⟩ => rfl)
  have e26 : idx_main_v26 (ix3 b n d) = ix3 b n (0 : Fin 1) := funext fun a => Fin.ext (by
    match a with | ⟨0, _⟩ => rfl | ⟨1, _⟩ => rfl | ⟨2, _⟩ => rfl)
  have e29 : idx_main_v28 (idx_main_v29 (ix3 b n d)) = ix1 d := funext fun a => Fin.ext (by
    match a with | ⟨0, _⟩ => rfl)
  have e32 : idx_main_v31 (idx_main_v32 (ix3 b n d)) = ix1 d := funext fun a => Fin.ext (by
    match a with | ⟨0, _⟩ => rfl)
  show (val_main_v9 (F := Ideal) x0 x1 x2 x3 x4 x5 (ix3 b n d) - val_main_v21 (F := Ideal) x0 x1 x2 x3 x4 x5 (ix3 b n d))
        * val_main_v26 (F := Ideal) x0 x1 x2 x3 x4 x5 (ix3 b n d) * val_main_v29 (F := Ideal) x6 (ix3 b n d)
      + val_main_v32 (F := Ideal) x7 (ix3 b n d) = _
  rw [val_main_v21_apply, e21, mean_at, nbr_at, val_main_v26_apply, e26, val_main_v29_apply, val_main_v28_apply, e29,
    val_main_v32_apply, val_main_v31_apply, e32]
  show _ * Ideal.rsqrt (val_main_v20 (F := Ideal) x0 x1 x2 x3 x4 x5 (ix3 b n (0 : Fin 1))
        + val_main_v23 (F := Ideal) (ix3 b n (0 : Fin 1))) * _ + _ = _
  rw [var_at, val_main_v23_apply]
  rfl

end Cert.RefValue

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KernelHalf.lean ====
/-
  One half of the kernel's neighbour sum, read at an index.

  The body handles the 32 neighbours of its 128 rows as two halves of 16. For a half it takes the rows (p, k) of the
  neighbour activations as the 2048 rows p·16 + k of a matrix, multiplies by W_s, takes the product back to (p, k, ·),
  subtracts the centre activation of row p repeated over the 16 neighbours, multiplies by the gate — the pair activations
  times the mask of (p, k) repeated over their 128 channels, as a matrix of 2048 rows times W_z, taken back to (p, k, ·) —
  sums over the 16 neighbours, and adds the result to a running sum. So at row p and channel e the half adds
      Σ_k ((Σ_c a[p,k,c] · W_s[c,e]) − s[p,e]) · (Σ_z (z[p,k,z] · m[p,k]) · W_z[z,e]).
  The first half is the same text started from the zero splat.
-/
import proofs.«111553_j24043226923188_2_alg».proof.Proof.Gen.KernelIdeal.Skeleton
import proofs.«111553_j24043226923188_2_alg».proof.Proof.LibRows
import proofs.«111553_j24043226923188_2_alg».proof.Proof.LibMatmulPlain
import Idealize.ShloMosaic.Lib.ValueLayout

noncomputable section

open scoped BigOperators

namespace Cert.KernelHalf

open Cert.KernelIdeal Cert.KernelIdeal.Gen Idealize.ShloMosaic Idealize.ShloMosaic.ValueIdx

/-- A [128, 16, K] array as 2048 rows times a [K, 384] matrix, taken back to [128, 16, 384]: entry (p, k, d) is the row
    (p, k) of the array against column d of the matrix. -/
theorem proj_apply {K : Nat} {φ₁ φ₂ : FTy} (D : DotDims ⟨2, ![2048, K]⟩ ⟨2, ![K, 384]⟩ ⟨2, ![2048, 384]⟩)
    (hD : D = DotDims.plain 2048 K 384) (x : FVec Ideal ⟨3, ![128, 16, K]⟩ φ₁) (W : FVec Ideal ⟨2, ![K, 384]⟩ φ₂)
    (h1 : (⟨3, ![128, 16, K]⟩ : Shape).ShapeCasts ⟨2, ![2048, K]⟩)
    (h2 : (⟨2, ![2048, 384]⟩ : Shape).ShapeCasts ⟨3, ![128, 16, 384]⟩) (p : Fin 128) (k : Fin 16) (d : Fin 384) :
    shapeCast ⟨3, ![128, 16, 384]⟩
        (matmul D none (shapeCast ⟨2, ![2048, K]⟩ x h1) W (constant (F := Ideal) ⟨2, ![2048, 384]⟩ .f32 0x00000000#32)) h2
        (ix3 p k d)
      = ∑ c : Fin K, x (ix3 p k c) * W (ix2 c d) := by
  have hr : p.val * 16 + k.val < 2048 := by omega
  refine (LibRows.unflatten_rows_apply _ h2 p k d ⟨p.val * 16 + k.val, hr⟩ rfl).trans ?_
  refine (LibMatmulPlain.matmul_plain_zero_apply D hD none _ W ⟨p.val * 16 + k.val, hr⟩ d).trans ?_
  exact Finset.sum_congr rfl fun c _ =>
    congrArg (· * W (ix2 c d)) (LibRows.flatten_rows_apply x h1 p k c ⟨p.val * 16 + k.val, hr⟩ rfl)

/-- ONE HALF at row p and channel e: the running sum plus the 16 neighbours' messages. -/
theorem half_at (v1 : FVec Ideal S384x384 .bf16) (v3 : FVec Ideal S128x384 .bf16) (v5 v29 : FVec Ideal S128x384 .f32)
    (v31 : FVec Ideal S128x16x384 .f32) (v39 : Vec Ideal S1x128x16 .f32) (v41 : Vec Ideal S1x128x16x128 .f32)
    (p : Fin 128) (e : Fin 384) :
    k0_pay7 v1 v3 v5 v29 v31 v39 v41 (ix2 p e)
      = v29 (ix2 p e) + ∑ k : Fin 16,
          ((∑ c : Fin 384, v31 (ix3 p k c) * v1 (ix2 c e)) - v5 (ix2 p e))
            * (∑ z : Fin 128, (v41 (ix4 (0 : Fin 1) p k z) * v39 (ix3 (0 : Fin 1) p k)) * v3 (ix2 z e)) := by
  unfold k0_pay7
  dsimp only
  rw [ValueIdx.addf_apply]
  congr 1
  refine (LibRows.lane_sum_mid_apply _ _ _ _ p e).trans (Finset.sum_congr rfl fun k _ => ?_)
  rw [ValueIdx.mulf_apply, ValueIdx.subf_apply]
  congr 1
  · congr 1
    · exact proj_apply _ rfl _ v1 _ _ p k e
    · exact (LibRows.bcast_mid_apply _ _ p k e).trans (LibRows.insert_mid_apply v5 _ p 0 e)
  · refine (proj_apply _ rfl _ v3 _ _ p k e).trans (Finset.sum_congr rfl fun z _ => congrArg (· * v3 (ix2 z e)) ?_)
    show shapeCast S128x16x128 v41 _ (ix3 p k z) * broadcastTo S128x16x128 _ _ (ix3 p k z) = _
    congr 1
    · exact shapeCast_1abc_abc_apply v41 _ p k z
    · exact (LibRows.bcast_last_apply _ _ p k z).trans
        ((LibRows.append_unit_apply _ _ p k 0).trans (shapeCast_1ab_ab_apply v39 _ p k))

/-- The first half is the same text from the zero splat. -/
theorem first_half_eq (v0 : Vec Ideal S384x384 .f32) (v2 : Vec Ideal S128x384 .f32) (v4 : Vec Ideal S1x128x384 .f32)
    (v7 : Vec Ideal S1x128x16x384 .f32) (v16 : Vec Ideal S1x128x16 .f32) (v18 : Vec Ideal S1x128x16x128 .f32) :
    k0_pay5 v0 v2 v4 v7 v16 v18
      = k0_pay7 (truncf .bf16 v0 bitsLt_bf16_f32) (truncf .bf16 v2 bitsLt_bf16_f32)
          (shapeCast S128x384 v4 shapeCasts_S1x128x384_S128x384) (broadcast S128x384 (Scalar.ofBits .f32 0x00000000#32))
          (shapeCast S128x16x384 v7 shapeCasts_S1x128x16x384_S128x16x384) v16 v18 := rfl

end Cert.KernelHalf

end
-- ==== Proof.KernelBlock.lean ====
/-
  What one grid point leaves in its output block, index by index.

  The body's result at row p and channel d of the block is the normalised row of neighbour sums (`Spec.lnorm`) of the
  point's input blocks: the neighbour sum of row p is the zero splat plus the first 16 neighbours' messages plus the last
  16 neighbours' (`Spec.nbrIn` of the blocks, the mask multiplied into the pair activations), and the row is normalised by
  its mean and variance over the 384 channels, each a lane sum divided by the word of 384, then scaled by the gamma block
  and shifted by the beta block. The two halves are loaded through rectangles that start at neighbour 0 and at neighbour
  16 of the blocks; everything else is loaded whole.
-/
import proofs.«111553_j24043226923188_2_alg».proof.Proof.Gen.KernelIdeal.Value
import proofs.«111553_j24043226923188_2_alg».proof.Proof.KernelHalf
import proofs.«111553_j24043226923188_2_alg».proof.Proof.Spec

noncomputable section

open scoped BigOperators

namespace Cert.KernelBlock

open Cert.KernelIdeal Cert.KernelIdeal.Gen Idealize.ShloMosaic Idealize.ShloMosaic.ValueIdx Cert.Spec

theorem hz2 : (![0, 0] : Fin 2 → Nat) = fun _ => 0 := funext fun a => by fin_cases a <;> rfl
theorem hz3 : (![0, 0, 0] : Fin 3 → Nat) = fun _ => 0 := funext fun a => by fin_cases a <;> rfl

/-! ## The loads of the two halves -/

section
variable (x1 : Vec Ideal S1x128x32x384 .f32) (x2 : Vec Ideal S1x128x32 .f32) (x3 : Vec Ideal S1x128x32x128 .f32)
  (u : Fin 1) (p : Fin 128) (k : Fin 16)

/-- The first half of the neighbour activations is neighbours 0 … 15. -/
theorem ld_act_lo (c : Fin 384) : View.ld x1 r0_3 (ix4 u p k c) = x1 (ix4 u p (lo k) c) := by
  show x1 (r0_3.emb (ix4 u p k c)) = _
  congr 1; funext a; apply Fin.ext
  match a with
  | ⟨0, _⟩ => simp only [Rect.emb_apply, Rect.off_unit, Rect.stride_unit, Nat.one_mul]; exact Nat.zero_add _
  | ⟨1, _⟩ => simp only [Rect.emb_apply, Rect.off_unit, Rect.stride_unit, Nat.one_mul]; exact Nat.zero_add _
  | ⟨2, _⟩ => simp only [Rect.emb_apply, Rect.off_unit, Rect.stride_unit, Nat.one_mul]; exact Nat.zero_add _
  | ⟨3, _⟩ => simp only [Rect.emb_apply, Rect.off_unit, Rect.stride_unit, Nat.one_mul]; exact Nat.zero_add _

/-- The second half of the neighbour activations is neighbours 16 … 31. -/
theorem ld_act_hi (c : Fin 384) : View.ld x1 r0_6 (ix4 u p k c) = x1 (ix4 u p (hi k) c) := by
  show x1 (r0_6.emb (ix4 u p k c)) = _
  congr 1; funext a; apply Fin.ext
  match a with
  | ⟨0, _⟩ => simp only [Rect.emb_apply, Rect.off_unit, Rect.stride_unit, Nat.one_mul]; exact Nat.zero_add _
  | ⟨1, _⟩ => simp only [Rect.emb_apply, Rect.off_unit, Rect.stride_unit, Nat.one_mul]; exact Nat.zero_add _
  | ⟨2, _⟩ => simp only [Rect.emb_apply, Rect.off_unit, Rect.stride_unit, Nat.one_mul]; rfl
  | ⟨3, _⟩ => simp only [Rect.emb_apply, Rect.off_unit, Rect.stride_unit, Nat.one_mul]; exact Nat.zero_add _

/-- The first half of the mask. -/
theorem ld_mask_lo : View.ld x2 r0_4 (ix3 u p k) = x2 (ix3 u p (lo k)) := by
  show x2 (r0_4.emb (ix3 u p k)) = _
  congr 1; funext a; apply Fin.ext
  match a with
  | ⟨0, _⟩ => simp only [Rect.emb_apply, Rect.off_unit, Rect.stride_unit, Nat.one_mul]; exact Nat.zero_add _
  | ⟨1, _⟩ => simp only [Rect.emb_apply, Rect.off_unit, Rect.stride_unit, Nat.one_mul]; exact Nat.zero_add _
  | ⟨2, _⟩ => simp only [Rect.emb_apply, Rect.off_unit, Rect.stride_unit, Nat.one_mul]; exact Nat.zero_add _

/-- The second half of the mask. -/
theorem ld_mask_hi : View.ld x2 r0_7 (ix3 u p k) = x2 (ix3 u p (hi k)) := by
  show x2 (r0_7.emb (ix3 u p k)) = _
  congr 1; funext a; apply Fin.ext
  match a with
  | ⟨0, _⟩ => simp only [Rect.emb_apply, Rect.off_unit, Rect.stride_unit, Nat.one_mul]; exact Nat.zero_add _
  | ⟨1, _⟩ => simp only [Rect.emb_apply, Rect.off_unit, Rect.stride_unit, Nat.one_mul]; exact Nat.zero_add _
  | ⟨2, _⟩ => simp only [Rect.emb_apply, Rect.off_unit, Rect.stride_unit, Nat.one_mul]; rfl

/-- The first half of the pair activations. -/
theorem ld_pair_lo (z : Fin 128) : View.ld x3 r0_5 (ix4 u p k z) = x3 (ix4 u p (lo k) z) := by
  show x3 (r0_5.emb (ix4 u p k z)) = _
  congr 1; funext a; apply Fin.ext
  match a with
  | ⟨0, _⟩ => simp only [Rect.emb_apply, Rect.off_unit, Rect.stride_unit, Nat.one_mul]; exact Nat.zero_add _
  | ⟨1, _⟩ => simp only [Rect.emb_apply, Rect.off_unit, Rect.stride_unit, Nat.one_mul]; exact Nat.zero_add _
  | ⟨2, _⟩ => simp only [Rect.emb_apply, Rect.off_unit, Rect.stride_unit, Nat.one_mul]; exact Nat.zero_add _
  | ⟨3, _⟩ => simp only [Rect.emb_apply, Rect.off_unit, Rect.stride_unit, Nat.one_mul]; exact Nat.zero_add _

/-- The second half of the pair activations. -/
theorem ld_pair_hi (z : Fin 128) : View.ld x3 r0_8 (ix4 u p k z) = x3 (ix4 u p (hi k) z) := by
  show x3 (r0_8.emb (ix4 u p k z)) = _
  congr 1; funext a; apply Fin.ext
  match a with
  | ⟨0, _⟩ => simp only [Rect.emb_apply, Rect.off_unit, Rect.stride_unit, Nat.one_mul]; exact Nat.zero_add _
  | ⟨1, _⟩ => simp only [Rect.emb_apply, Rect.off_unit, Rect.stride_unit, Nat.one_mul]; exact Nat.zero_add _
  | ⟨2, _⟩ => simp only [Rect.emb_apply, Rect.off_unit, Rect.stride_unit, Nat.one_mul]; rfl
  | ⟨3, _⟩ => simp only [Rect.emb_apply, Rect.off_unit, Rect.stride_unit, Nat.one_mul]; exact Nat.zero_add _

end

/-! ## The neighbour sum of a row of the block -/

/-- The body's neighbour sum, from the blocks' loads, at row p and channel e is `nbrIn` of the blocks. -/
theorem nbr_block (x0 : Vec Ideal S1x128x384 .f32) (x1 : Vec Ideal S1x128x32x384 .f32) (x2 : Vec Ideal S1x128x32 .f32)
    (x3 : Vec Ideal S1x128x32x128 .f32) (x4 : Vec Ideal S384x384 .f32) (x5 : Vec Ideal S128x384 .f32)
    (p : Fin 128) (e : Fin 384) :
    k0_pay7 (F := Ideal) (truncf .bf16 (View.ld x4 r0_0) bitsLt_bf16_f32) (truncf .bf16 (View.ld x5 r0_1) bitsLt_bf16_f32)
        (shapeCast S128x384 (View.ld x0 r0_2) shapeCasts_S1x128x384_S128x384)
        (k0_pay5 (View.ld x4 r0_0) (View.ld x5 r0_1) (View.ld x0 r0_2) (View.ld x1 r0_3) (View.ld x2 r0_4) (View.ld x3 r0_5))
        (shapeCast S128x16x384 (View.ld x1 r0_6) shapeCasts_S1x128x16x384_S128x16x384) (View.ld x2 r0_7) (View.ld x3 r0_8)
        (ix2 p e)
      = nbrIn x0 x1 x2 x3 x4 x5 (0 : Fin 1) p e := by
  have w_s : ∀ c : Fin 384, (truncf (F := Ideal) .bf16 (View.ld x4 r0_0) bitsLt_bf16_f32 (ix2 c e) : EReal) = x4 (ix2 c e) := fun c => by
    show View.ld x4 r0_0 (ix2 c e) = _
    rw [View.ld_unit_zero (S := S384x384) hz2]
  have w_z : ∀ z : Fin 128, (truncf (F := Ideal) .bf16 (View.ld x5 r0_1) bitsLt_bf16_f32 (ix2 z e) : EReal) = x5 (ix2 z e) := fun z => by
    show View.ld x5 r0_1 (ix2 z e) = _
    rw [View.ld_unit_zero (S := S128x384) hz2]
  have ctr : shapeCast S128x384 (View.ld x0 r0_2) shapeCasts_S1x128x384_S128x384 (ix2 p e) = x0 (ix3 (0 : Fin 1) p e) := by
    rw [View.ld_unit_zero (S := S1x128x384) hz3]
    exact shapeCast_1ab_ab_apply x0 _ p e
  have a_lo : ∀ (k : Fin 16) (c : Fin 384),
      shapeCast S128x16x384 (View.ld x1 r0_3) shapeCasts_S1x128x16x384_S128x16x384 (ix3 p k c) = x1 (ix4 (0 : Fin 1) p (lo k) c) :=
    fun k c => (shapeCast_1abc_abc_apply (View.ld x1 r0_3) _ p k c).trans (ld_act_lo x1 0 p k c)
  have a_hi : ∀ (k : Fin 16) (c : Fin 384),
      shapeCast S128x16x384 (View.ld x1 r0_6) shapeCasts_S1x128x16x384_S128x16x384 (ix3 p k c) = x1 (ix4 (0 : Fin 1) p (hi k) c) :=
    fun k c => (shapeCast_1abc_abc_apply (View.ld x1 r0_6) _ p k c).trans (ld_act_hi x1 0 p k c)
  have m_lo : ∀ k : Fin 16, View.ld x2 r0_4 (ix3 (0 : Fin 1) p k) = x2 (ix3 (0 : Fin 1) p (lo k)) :=
    fun k => ld_mask_lo x2 0 p k
  have m_hi : ∀ k : Fin 16, View.ld x2 r0_7 (ix3 (0 : Fin 1) p k) = x2 (ix3 (0 : Fin 1) p (hi k)) :=
    fun k => ld_mask_hi x2 0 p k
  have z_lo : ∀ (k : Fin 16) (z : Fin 128), View.ld x3 r0_5 (ix4 (0 : Fin 1) p k z) = x3 (ix4 (0 : Fin 1) p (lo k) z) :=
    fun k z => ld_pair_lo x3 0 p k z
  have z_hi : ∀ (k : Fin 16) (z : Fin 128), View.ld x3 r0_8 (ix4 (0 : Fin 1) p k z) = x3 (ix4 (0 : Fin 1) p (hi k) z) :=
    fun k z => ld_pair_hi x3 0 p k z
  rw [KernelHalf.half_at, KernelHalf.first_half_eq, KernelHalf.half_at]
  simp only [w_s, w_z, ctr, a_lo, a_hi, m_lo, m_hi, z_lo, z_hi]
  rfl

/-! ## The normalisation of the rows of a matrix of neighbour sums -/

/-- The lane sum of each row. -/
abbrev rowSum (T : FVec Ideal S128x384 .f32) : FVec Ideal S128 .f32 :=
  multiReduction .add [1] S128 T 0x00000000#32 reduces_S128x384_S128 (.inl rfl) rfl

/-- Each row's mean, as a column repeated over the channels. -/
abbrev meanB (T : FVec Ideal S128x384 .f32) : FVec Ideal S128x384 .f32 :=
  broadcastTo S128x384 (divf (shapeCast S128x1 (rowSum T) shapeCasts_S128_S128x1)
    (broadcast S128x1 (FloatOps.ofBits .f32 0x43C00000#32))) broadcasts_S128x1_S128x384

/-- A vector divided by a constant, as a column repeated over the channels, at (p, e). -/
theorem col_div_at (M : FVec Ideal S128 .f32) (cst : Ideal .f32) (p : Fin 128) (e : Fin 384) :
    broadcastTo S128x384 (divf (shapeCast S128x1 M shapeCasts_S128_S128x1) (broadcast S128x1 cst)) broadcasts_S128x1_S128x384
        (ix2 p e) = Ideal.div (M (ix1 p)) cst := by
  refine (LibRows.bcast_col_apply _ _ p e).trans ?_
  show Ideal.div (shapeCast S128x1 M shapeCasts_S128_S128x1 (ix2 p (0 : Fin 1))) cst = _
  rw [LibRows.col_cast_apply]

/-- THE NORMALISED ROW at channel d, from the matrix `T` of neighbour sums: the body's mean, variance, reciprocal square
    root, scale and shift are `lnorm` of row p of `T`. -/
theorem norm_at (T : FVec Ideal S128x384 .f32) (g bt : Fin 384 → EReal) (p : Fin 128) (d : Fin 384) :
    FloatOps.addf (FloatOps.mulf (FloatOps.mulf
        (FloatOps.subf (T (ix2 p d)) (FloatOps.divf (rowSum T (ix1 p)) (FloatOps.ofBits .f32 0x43C00000#32)))
        (FloatOps.rsqrt (FloatOps.addf (FloatOps.divf
            (multiReduction .add [1] S128 (mulf (subf T (meanB T)) (subf T (meanB T))) 0x00000000#32 reduces_S128x384_S128
              (.inl rfl) rfl (ix1 p))
            (FloatOps.ofBits .f32 0x43C00000#32)) (FloatOps.ofBits .f32 0x358637BD#32))))
        (g d)) (bt d)
      = lnorm (fun e => T (ix2 p e)) g bt d := by
  have mr1 : rowSum T (ix1 p) = ∑ e : Fin 384, T (ix2 p e) := LibRows.lane_sum_last_apply T _ _ _ p
  have hmean : ∀ e : Fin 384, meanB T (ix2 p e) = rowMean (fun e' => T (ix2 p e')) := fun e =>
    (col_div_at (rowSum T) (FloatOps.ofBits .f32 0x43C00000#32) p e).trans (by rw [mr1]; rfl)
  have hdev : ∀ e : Fin 384, subf T (meanB T) (ix2 p e) = T (ix2 p e) - rowMean (fun e' => T (ix2 p e')) := fun e => by
    show T (ix2 p e) - meanB T (ix2 p e) = _
    rw [hmean e]
  have mr2 : multiReduction .add [1] S128 (mulf (subf T (meanB T)) (subf T (meanB T))) 0x00000000#32 reduces_S128x384_S128
        (.inl rfl) rfl (ix1 p)
      = ∑ e : Fin 384, (T (ix2 p e) - rowMean (fun e' => T (ix2 p e'))) * (T (ix2 p e) - rowMean (fun e' => T (ix2 p e'))) := by
    refine (LibRows.lane_sum_last_apply _ _ _ _ p).trans (Finset.sum_congr rfl fun e _ => ?_)
    rw [ValueIdx.mulf_apply, hdev e]
  rw [mr1, mr2]
  rfl

/-! ## The block -/

/-- WHAT THE BODY LEAVES at row p and channel d of its output block. -/
theorem block_eq (x0 : Vec Ideal S1x128x384 .f32) (x1 : Vec Ideal S1x128x32x384 .f32) (x2 : Vec Ideal S1x128x32 .f32)
    (x3 : Vec Ideal S1x128x32x128 .f32) (x4 : Vec Ideal S384x384 .f32) (x5 : Vec Ideal S128x384 .f32)
    (x6 x7 : Vec Ideal S1x384 .f32) (u : Fin 1) (p : Fin 128) (d : Fin 384) :
    out0_8 x0 x1 x2 x3 x4 x5 x6 x7 (ix3 u p d)
      = lnorm (fun e => nbrIn x0 x1 x2 x3 x4 x5 (0 : Fin 1) p e) (fun e => x6 (ix2 (0 : Fin 1) e)) (fun e => x7 (ix2 (0 : Fin 1) e)) d := by
  have h0 : Value.ix8_0 (ix3 u p d) = ix2 p d := funext fun a => Fin.ext (by match a with | ⟨0, _⟩ => rfl | ⟨1, _⟩ => rfl)
  have h1 : Value.ix8_1 (ix3 u p d) = ix1 p := funext fun a => Fin.ext (by match a with | ⟨0, _⟩ => rfl)
  have h2 : Value.ix8_2 (ix3 u p d) = ix1 p := funext fun a => Fin.ext (by match a with | ⟨0, _⟩ => rfl)
  have h3 : Value.ix8_3 (ix3 u p d) = ix2 (0 : Fin 1) d := funext fun a => Fin.ext (by match a with | ⟨0, _⟩ => rfl | ⟨1, _⟩ => rfl)
  have h4 : Value.ix8_4 (ix3 u p d) = ix2 (0 : Fin 1) d := funext fun a => Fin.ext (by match a with | ⟨0, _⟩ => rfl | ⟨1, _⟩ => rfl)
  unfold out0_8
  refine (Value.canon8_eq (F := Ideal) (View.ld x4 r0_0) (View.ld x5 r0_1) (View.ld x0 r0_2) (View.ld x1 r0_3) (View.ld x2 r0_4)
    (View.ld x3 r0_5) (View.ld x1 r0_6) (View.ld x2 r0_7) (View.ld x3 r0_8) (View.ld x6 r0_9) (View.ld x7 r0_9) (ix3 u p d)).trans ?_
  dsimp only [Value.E8]
  rw [h0, h1, h2, h3, h4]
  refine (norm_at _ (fun e => View.ld x6 r0_9 (ix2 (0 : Fin 1) e)) (fun e => View.ld x7 r0_9 (ix2 (0 : Fin 1) e)) p d).trans ?_
  refine congrFun (congr (congr (congrArg lnorm (funext fun e => nbr_block x0 x1 x2 x3 x4 x5 p e)) (funext fun e => ?_))
    (funext fun e => ?_)) d
  · rw [View.ld_unit_zero (S := S1x384) hz2]
  · rw [View.ld_unit_zero (S := S1x384) hz2]

end Cert.KernelBlock

end
-- ==== Proof.KernelArray.lean ====
/-
  The kernel's result array after the run, as one function of the argument arrays.

  Grid point (b, j) stages row block j of batch b of the centre activations, the neighbour activations, the mask and the
  pair activations (rows j·128 … j·128 + 127), the whole of W_s and W_z, and gamma and beta as the single rows the host
  reshaped them to; it writes back rows j·128 … j·128 + 127 of batch b of the result. A block of an array is the array
  restricted to those rows, so what the point writes is `Spec.resIn` of the whole arrays restricted to its rows; the 32
  points' blocks cover the result (row r of batch b is in the block of point (b, r / 128)), hence the result array IS
  `Spec.resIn` of the arguments.
-/
import proofs.«111553_j24043226923188_2_alg».proof.Proof.Gen.KernelIdeal.Value
import proofs.«111553_j24043226923188_2_alg».proof.Proof.KernelBlock
import Idealize.ShloMosaic.Lib.StableHlo.Run
import Idealize.ShloMosaic.Lib.ValueLayout

noncomputable section

open scoped BigOperators

namespace Cert.KernelArray

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-! ## One point, over variables -/

/-- If the blocks are the whole arrays restricted to batch `b` and rows `n p`, the body's result at row p, channel d of
    the block is `resIn` of the whole arrays at (b, n p, d). -/
theorem point_eq (A0 : S4x1024x384.Idx → EReal) (A1 : S4x1024x32x384.Idx → EReal) (A2 : S4x1024x32.Idx → EReal)
    (A3 : S4x1024x32x128.Idx → EReal) (A4 : S384x384.Idx → EReal) (A5 : S128x384.Idx → EReal) (g bt : Fin 384 → EReal)
    (x0 : Vec Ideal S1x128x384 .f32) (x1 : Vec Ideal S1x128x32x384 .f32) (x2 : Vec Ideal S1x128x32 .f32)
    (x3 : Vec Ideal S1x128x32x128 .f32) (x4 : Vec Ideal S384x384 .f32) (x5 : Vec Ideal S128x384 .f32)
    (x6 x7 : Vec Ideal S1x384 .f32) (b : Fin 4) (n : Fin 128 → Fin 1024)
    (h0 : ∀ (u : Fin 1) (p : Fin 128) (e : Fin 384), x0 (ix3 u p e) = A0 (ix3 b (n p) e))
    (h1 : ∀ (u : Fin 1) (p : Fin 128) (k : Fin 32) (c : Fin 384), x1 (ix4 u p k c) = A1 (ix4 b (n p) k c))
    (h2 : ∀ (u : Fin 1) (p : Fin 128) (k : Fin 32), x2 (ix3 u p k) = A2 (ix3 b (n p) k))
    (h3 : ∀ (u : Fin 1) (p : Fin 128) (k : Fin 32) (z : Fin 128), x3 (ix4 u p k z) = A3 (ix4 b (n p) k z))
    (h4 : ∀ (c : Fin 384) (e : Fin 384), x4 (ix2 c e) = A4 (ix2 c e))
    (h5 : ∀ (z : Fin 128) (e : Fin 384), x5 (ix2 z e) = A5 (ix2 z e))
    (h6 : ∀ e : Fin 384, x6 (ix2 (0 : Fin 1) e) = g e) (h7 : ∀ e : Fin 384, x7 (ix2 (0 : Fin 1) e) = bt e)
    (y : S1x128x384.Idx) :
    out0_8 x0 x1 x2 x3 x4 x5 x6 x7 y = resIn A0 A1 A2 A3 A4 A5 g bt (ix3 b (n (y 1)) (y 2)) := by
  obtain ⟨u, p, d, rfl⟩ : ∃ (u : Fin 1) (p : Fin 128) (d : Fin 384), y = ix3 u p d := ⟨y 0, y 1, y 2, eq_ix3 y⟩
  rw [KernelBlock.block_eq]
  show _ = lnorm (fun e => nbrIn A0 A1 A2 A3 A4 A5 b (n p) e) g bt d
  refine congrFun (congr (congr (congrArg lnorm (funext fun e => ?_)) (funext h6)) (funext h7)) d
  unfold nbrIn diff gateIn
  simp only [h0, h1, h2, h3, h4, h5]

/-! ## The grid -/

variable (m : (ℓ : Loc nD τ sig) → Buf (Elt Ideal) ℓ) (ρ : Dev nD → PrngReg)

/-- The printed index maps, decided over the 32 grid points: the four row-blocked inputs move with the output, the
    resident inputs stay at block 0, and the output's block indices stay in range. -/
theorem idx_facts : ∀ t : Fin cfg0.N,
    (win0_0.index t (0 : Fin 3) = win0_8.index t (0 : Fin 3) ∧ win0_0.index t (1 : Fin 3) = win0_8.index t (1 : Fin 3)
      ∧ win0_0.index t (2 : Fin 3) = 0)
    ∧ (win0_1.index t (0 : Fin 4) = win0_8.index t (0 : Fin 3) ∧ win0_1.index t (1 : Fin 4) = win0_8.index t (1 : Fin 3)
      ∧ win0_1.index t (2 : Fin 4) = 0 ∧ win0_1.index t (3 : Fin 4) = 0)
    ∧ (win0_2.index t (0 : Fin 3) = win0_8.index t (0 : Fin 3) ∧ win0_2.index t (1 : Fin 3) = win0_8.index t (1 : Fin 3)
      ∧ win0_2.index t (2 : Fin 3) = 0)
    ∧ (win0_3.index t (0 : Fin 4) = win0_8.index t (0 : Fin 3) ∧ win0_3.index t (1 : Fin 4) = win0_8.index t (1 : Fin 3)
      ∧ win0_3.index t (2 : Fin 4) = 0 ∧ win0_3.index t (3 : Fin 4) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) ≤ 3 ∧ win0_8.index t (1 : Fin 3) ≤ 7 ∧ win0_8.index t (2 : Fin 3) = 0) :=
  (by decide +kernel : ∀ t : Fin grid0.N, _)

/-- Every (batch, row block) is some point's. -/
theorem idx_onto : ∀ (q0 : Fin 4) (q1 : Fin 8), ∃ t : Fin cfg0.N, win0_8.index t = ![q0.val, q1.val, 0] :=
  (by decide +kernel : ∀ (q0 : Fin 4) (q1 : Fin 8), ∃ t : Fin grid0.N, win0_8.index t = ![q0.val, q1.val, 0])

/-- The result as the region finds its inputs: `resIn` of the arrays at region entry, gamma and beta read off the rows the
    host reshaped them to. -/
abbrev atEntry (c : Dev nD) : S4x1024x384.Idx → EReal :=
  resIn (V m c main_arg0) (V m c main_arg1) (V m c main_arg2) (V m c main_arg3) (V m c main_arg4) (V m c main_arg5)
    (fun e => V m c main_v0 (ix2 (0 : Fin 1) e)) (fun e => V m c main_v1 (ix2 (0 : Fin 1) e))

/-- WHAT POINT `t` WRITES BACK is block `t` of `atEntry`. -/
theorem flushed_eq (c : Dev nD) (t : Fin cfg0.N) :
    (dats m 0 c).flushed 8 t = ((cfg0.win 8).blk t).view.read (Elt Ideal) (atEntry m c) := by
  rw [Value.flushed8]
  obtain ⟨⟨a00, a01, a02⟩, ⟨a10, a11, a12, a13⟩, ⟨a20, a21, a22⟩, ⟨a30, a31, a32, a33⟩, ⟨a40, a41⟩, ⟨a50, a51⟩, ⟨a60, a61⟩,
    ⟨a70, a71⟩, ⟨o0, o1, o2⟩⟩ := idx_facts t
  funext y
  have hy1 : (y 1).val < 128 := (y 1).isLt
  show out0_8 (iblk m c 0 t) (iblk m c 1 t) (iblk m c 2 t) (iblk m c 3 t) (iblk m c 4 t) (iblk m c 5 t) (iblk m c 6 t)
      (iblk m c 7 t) y = atEntry m c (((cfg0.win 8).blk t).view.emb y)
  refine (point_eq (V m c main_arg0) (V m c main_arg1) (V m c main_arg2) (V m c main_arg3) (V m c main_arg4) (V m c main_arg5)
    (fun e => V m c main_v0 (ix2 (0 : Fin 1) e)) (fun e => V m c main_v1 (ix2 (0 : Fin 1) e))
    (iblk m c 0 t) (iblk m c 1 t) (iblk m c 2 t) (iblk m c 3 t) (iblk m c 4 t) (iblk m c 5 t) (iblk m c 6 t) (iblk m c 7 t)
    ⟨win0_8.index t (0 : Fin 3), by omega⟩ (fun p => ⟨win0_8.index t (1 : Fin 3) * 128 + p.val, by have := p.isLt; omega⟩)
    ?_ ?_ ?_ ?_ ?_ ?_ ?_ ?_ y).trans ?_
  · intro u p e
    show V m c main_arg0 (((cfg0.win 0).blk t).view.emb (ix3 u p e)) = _
    refine congrArg (V m c main_arg0) (funext fun a => Fin.ext ?_)
    match a with
    | ⟨0, _⟩ => show win0_0.index t (0 : Fin 3) * 1 + 1 * u.val = win0_8.index t (0 : Fin 3); omega
    | ⟨1, _⟩ => show win0_0.index t (1 : Fin 3) * 128 + 1 * p.val = win0_8.index t (1 : Fin 3) * 128 + p.val; omega
    | ⟨2, _⟩ => show win0_0.index t (2 : Fin 3) * 384 + 1 * e.val = e.val; omega
  · intro u p k cc
    show V m c main_arg1 (((cfg0.win 1).blk t).view.emb (ix4 u p k cc)) = _
    refine congrArg (V m c main_arg1) (funext fun a => Fin.ext ?_)
    match a with
    | ⟨0, _⟩ => show win0_1.index t (0 : Fin 4) * 1 + 1 * u.val = win0_8.index t (0 : Fin 3); omega
    | ⟨1, _⟩ => show win0_1.index t (1 : Fin 4) * 128 + 1 * p.val = win0_8.index t (1 : Fin 3) * 128 + p.val; omega
    | ⟨2, _⟩ => show win0_1.index t (2 : Fin 4) * 32 + 1 * k.val = k.val; omega
    | ⟨3, _⟩ => show win0_1.index t (3 : Fin 4) * 384 + 1 * cc.val = cc.val; omega
  · intro u p k
    show V m c main_arg2 (((cfg0.win 2).blk t).view.emb (ix3 u p k)) = _
    refine congrArg (V m c main_arg2) (funext fun a => Fin.ext ?_)
    match a with
    | ⟨0, _⟩ => show win0_2.index t (0 : Fin 3) * 1 + 1 * u.val = win0_8.index t (0 : Fin 3); omega
    | ⟨1, _⟩ => show win0_2.index t (1 : Fin 3) * 128 + 1 * p.val = win0_8.index t (1 : Fin 3) * 128 + p.val; omega
    | ⟨2, _⟩ => show win0_2.index t (2 : Fin 3) * 32 + 1 * k.val = k.val; omega
  · intro u p k z
    show V m c main_arg3 (((cfg0.win 3).blk t).view.emb (ix4 u p k z)) = _
    refine congrArg (V m c main_arg3) (funext fun a => Fin.ext ?_)
    match a with
    | ⟨0, _⟩ => show win0_3.index t (0 : Fin 4) * 1 + 1 * u.val = win0_8.index t (0 : Fin 3); omega
    | ⟨1, _⟩ => show win0_3.index t (1 : Fin 4) * 128 + 1 * p.val = win0_8.index t (1 : Fin 3) * 128 + p.val; omega
    | ⟨2, _⟩ => show win0_3.index t (2 : Fin 4) * 32 + 1 * k.val = k.val; omega
    | ⟨3, _⟩ => show win0_3.index t (3 : Fin 4) * 128 + 1 * z.val = z.val; omega
  · intro cc e
    show V m c main_arg4 (((cfg0.win 4).blk t).view.emb (ix2 cc e)) = _
    refine congrArg (V m c main_arg4) (funext fun a => Fin.ext ?_)
    match a with
    | ⟨0, _⟩ => show win0_4.index t (0 : Fin 2) * 384 + 1 * cc.val = cc.val; omega
    | ⟨1, _⟩ => show win0_4.index t (1 : Fin 2) * 384 + 1 * e.val = e.val; omega
  · intro z e
    show V m c main_arg5 (((cfg0.win 5).blk t).view.emb (ix2 z e)) = _
    refine congrArg (V m c main_arg5) (funext fun a => Fin.ext ?_)
    match a with
    | ⟨0, _⟩ => show win0_5.index t (0 : Fin 2) * 128 + 1 * z.val = z.val; omega
    | ⟨1, _⟩ => show win0_5.index t (1 : Fin 2) * 384 + 1 * e.val = e.val; omega
  · intro e
    show V m c main_v0 (((cfg0.win 6).blk t).view.emb (ix2 (0 : Fin 1) e)) = _
    refine congrArg (V m c main_v0) (funext fun a => Fin.ext ?_)
    match a with
    | ⟨0, _⟩ => show win0_6.index t (0 : Fin 2) * 1 + 1 * 0 = 0; omega
    | ⟨1, _⟩ => show win0_6.index t (1 : Fin 2) * 384 + 1 * e.val = e.val; omega
  · intro e
    show V m c main_v1 (((cfg0.win 7).blk t).view.emb (ix2 (0 : Fin 1) e)) = _
    refine congrArg (V m c main_v1) (funext fun a => Fin.ext ?_)
    match a with
    | ⟨0, _⟩ => show win0_7.index t (0 : Fin 2) * 1 + 1 * 0 = 0; omega
    | ⟨1, _⟩ => show win0_7.index t (1 : Fin 2) * 384 + 1 * e.val = e.val; omega
  · refine congrArg (atEntry m c) (funext fun a => Fin.ext ?_)
    have hy0 : (y 0).val < 1 := (y 0).isLt
    match a with
    | ⟨0, _⟩ => show win0_8.index t (0 : Fin 3) = win0_8.index t (0 : Fin 3) * 1 + 1 * (y 0).val; omega
    | ⟨1, _⟩ => show win0_8.index t (1 : Fin 3) * 128 + (y 1).val = win0_8.index t (1 : Fin 3) * 128 + 1 * (y 1).val; omega
    | ⟨2, _⟩ => show (y 2).val = win0_8.index t (2 : Fin 3) * 384 + 1 * (y 2).val; omega

/-- An index of the result is in point `t`'s block iff each coordinate is in the block's range on its axis. -/
theorem mem_blk (t : Fin cfg0.N) (i : S4x1024x384.Idx) :
    i ∈ ((cfg0.win 8).blk t).view.set ↔ ∀ a : Fin 3, win0_8.index t a * S1x128x384.size a ≤ (i a).val
      ∧ (i a).val < win0_8.index t a * S1x128x384.size a + S1x128x384.size a := by
  show i ∈ ((View.whole main_v2).slice (win0_8.rect t)).set ↔ _
  rw [View.set_slice_whole, Rect.mem_set_unit]
  exact Iff.rfl

/-- Every index of the result is in the block of the point of its batch and row block. -/
theorem cover (i : S4x1024x384.Idx) :
    ∃ t : Fin cfg0.N, (cfg0.win 8).flush t = true ∧ i ∈ ((cfg0.win 8).blk t).view.set := by
  have hi0 : (i 0).val < 4 := (i 0).isLt
  have hi1 : (i 1).val < 1024 := (i 1).isLt
  have hi2 : (i 2).val < 384 := (i 2).isLt
  obtain ⟨t, ht⟩ := idx_onto ⟨(i 0).val, hi0⟩ ⟨(i 1).val / 128, by omega⟩
  have q0 : win0_8.index t (0 : Fin 3) = (i 0).val := congrFun ht 0
  have q1 : win0_8.index t (1 : Fin 3) = (i 1).val / 128 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 384 ≤ (i 2).val ∧ (i 2).val < win0_8.index t (2 : Fin 3) * 384 + 384; omega

/-! ## The result array -/

/-- The row the host reshaped gamma to holds gamma. -/
theorem gamma_row (c : Dev nD) (e : Fin 384) :
    V m c main_v0 (ix2 (0 : Fin 1) e) = m ((c : Thread nD τ).loc main_arg6) (ix1 e) := by
  have hv : (V m c main_v0 : S1x384.Idx → EReal) = shapeCast S1x384 (m ((c : Thread nD τ).loc main_arg6)) shapeCasts_S384_S1x384 := by
    dsimp only [Gen.V, Gen.hostOps0]; after_results; rfl
  rw [hv]
  exact shapeCast_a_1a_apply _ _ 0 e

/-- The row the host reshaped beta to holds beta. -/
theorem beta_row (c : Dev nD) (e : Fin 384) :
    V m c main_v1 (ix2 (0 : Fin 1) e) = m ((c : Thread nD τ).loc main_arg7) (ix1 e) := by
  have hv : (V m c main_v1 : S1x384.Idx → EReal) = shapeCast S1x384 (m ((c : Thread nD τ).loc main_arg7)) shapeCasts_S384_S1x384 := by
    dsimp only [Gen.V, Gen.hostOps0]; after_results; rfl
  rw [hv]
  exact shapeCast_a_1a_apply _ _ 0 e

/-- THE RESULT as a function of the argument arrays as launched. -/
abbrev result (c : Dev nD) : S4x1024x384.Idx → EReal :=
  resIn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (fun e => m ((c : Thread nD τ).loc main_arg6) (ix1 e)) (fun e => m ((c : Thread nD τ).loc main_arg7) (ix1 e))

theorem atEntry_eq (c : Dev nD) : atEntry m c = result m c := by
  unfold atEntry result
  rw [V_main_arg0, V_main_arg1, V_main_arg2, V_main_arg3, V_main_arg4, V_main_arg5,
    funext (gamma_row m c), funext (beta_row m c)]

/-- THE RESULT ARRAY after the run. -/
theorem final (c : Dev nD) : (dats m 0 c).arrAt 8 cfg0.N = result m c :=
  ((dats m 0 c).arrAt_eq_of_cover 8 (atEntry m c) (fun t _ => flushed_eq m c t) cover).trans (atEntry_eq m c)

/-- THE KERNEL'S RUN: the result array ends at `result`, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelArray

end
-- ==== Proof.lean ====
/-
  The kernel against its reference, over the extended reals.

  Both programs take, for every batch b and row n, 32 neighbours: each contributes the projected neighbour activation
  minus the centre activation, (Σ_c s_ij[b,n,k,c]·W_s[c,d]) − s_i[b,n,d], times a gate, the pair activation projected by
  W_z, and a mask m_ij[b,n,k]. The 32 messages are summed and the row of 384 sums is normalised (mean, variance plus a
  constant, reciprocal square root, gamma, beta). The kernel multiplies the mask into the pair activation before the
  gate's matrix product and sums the neighbours as two halves of 16 over a grid of 4 × 8 blocks of 128 rows; the
  reference multiplies the mask onto the finished message and sums the 32 at once. Format changes are the identity over
  the extended reals, a matrix product into a zero accumulator and a lane sum are plain finite sums, the divisor 384 and
  the added constant are the same words on both sides, and the reciprocal square root is one function on both sides.

  What joins the two sides is pulling the mask out of the gate's sum, Σ_z (z·m)·w = (Σ_z z·w)·m. That is a law of the
  reals, not of the extended reals, so the proof reads from the precondition that the mask, the pair activations and W_z
  are real (Finite.lean) and proves the law there (Spec.lean); regrouping the neighbour sum and reassociating products
  need no such condition.

  The kernel's result array is read off its run block by block (KernelHalf.lean, KernelBlock.lean, KernelArray.lean) and
  the reference's off its run operation by operation (RefValue.lean). The three programs' runs terminate without fault
  and leave their arguments unchanged; the kernel and its idealization differ by no rewrite.
-/
import proofs.«111553_j24043226923188_2_alg».proof.Defs
import proofs.«111553_j24043226923188_2_alg».proof.Proof.Gen.Kernel
import proofs.«111553_j24043226923188_2_alg».proof.Proof.Gen.Kernel.Skeleton
import proofs.«111553_j24043226923188_2_alg».proof.Proof.Gen.Kernel.Launch
import proofs.«111553_j24043226923188_2_alg».proof.Proof.Gen.Kernel.Points
import proofs.«111553_j24043226923188_2_alg».proof.Proof.Gen.Kernel.Frame
import proofs.«111553_j24043226923188_2_alg».proof.Proof.Gen.KernelIdeal
import proofs.«111553_j24043226923188_2_alg».proof.Proof.Gen.KernelIdeal.Skeleton
import proofs.«111553_j24043226923188_2_alg».proof.Proof.Gen.KernelIdeal.Launch
import proofs.«111553_j24043226923188_2_alg».proof.Proof.Gen.KernelIdeal.Points
import proofs.«111553_j24043226923188_2_alg».proof.Proof.Gen.KernelIdeal.Frame
import proofs.«111553_j24043226923188_2_alg».proof.Proof.Gen.ReferenceIdeal
import proofs.«111553_j24043226923188_2_alg».proof.Proof.Gen.Pre_finite_inputs
import proofs.«111553_j24043226923188_2_alg».proof.Proof.Gen.KernelIdeal.Value
import proofs.«111553_j24043226923188_2_alg».proof.Proof.Gen.ReferenceIdeal.Run
import proofs.«111553_j24043226923188_2_alg».proof.Proof.Gen.ReferenceIdeal.Read
import proofs.«111553_j24043226923188_2_alg».proof.Proof.Spec
import proofs.«111553_j24043226923188_2_alg».proof.Proof.Finite
import proofs.«111553_j24043226923188_2_alg».proof.Proof.RefValue
import proofs.«111553_j24043226923188_2_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array (the mask inside the gate) and the reference's (the mask on the
    message) are equal: the precondition makes the mask, the pair activations and W_z real, where the two agree. -/
theorem algebraic : Cert.algebraic_KernelIdeal_ReferenceIdeal := by
  intro m ρ m' ρ' hpre hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨hm, hz, hW⟩ := Cert.Finite.reals_of_pre _ _ _ _ _ _ _ _ (hpre c)
  rw [Cert.ReferenceIdeal.Read.val_main_v33_eq, Cert.RefValue.result_eq, (hagree c).1, (hagree c).2.1, (hagree c).2.2.1,
    (hagree c).2.2.2.1, (hagree c).2.2.2.2.1, (hagree c).2.2.2.2.2.1, (hagree c).2.2.2.2.2.2.1, (hagree c).2.2.2.2.2.2.2]
  exact (Cert.Spec.resIn_eq _ _ _ _ _ _ hm hz hW _ _).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
